-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S4096x1024 .f32) (main_arg1 : FVec F S1024x1024 .f32) (main_arg2 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024, .f32⟩
  | .hbm, ⟨3, _⟩ => ⟨S1x1024, .f32⟩
  | .hbm, ⟨4, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x1024.size a
  hwx0_3 : ∀ i : grid0.Coords, EltTy.bits .f32 = 32 ∨ (Rect.block (s := S4096x1024) S1024x1024.size (cc0_transform_3 i) (hinb0_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S512x512 : Shape := ⟨2, ![512, 512]⟩
abbrev S1x512 : Shape := ⟨2, ![1, 512]⟩

abbrev nBuf : Space → Nat
  | .hbm => 6
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1x1024, .f32⟩
  | .hbm, ⟨5, _⟩ => ⟨S4096x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  transposes_S1024x1024_S1024x1024_1_0 : S1024x1024.Transposes [1, 0] S1024x1024
  shapeCasts_S1024_S1x1024 : S1024.ShapeCasts S1x1024
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x1024.size a
  hwx0_0 : ∀ i : grid0.Coords, EltTy.bits .f32 = 32 ∨ (Rect.block (s := S4096x1024) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S1024x1024.size a
  hwx0_1 : ∀ i : grid0.Coords, EltTy.bits .f32 = 32 ∨ (Rect.block (s := S1024x1024) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x1024.size a
  hwx0_2 : ∀ i : grid0.Coords, EltTy.bits .f32 = 32 ∨ (Rect.block (s := S1x1024) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S4096x1024.size a
  hwx0_3 : ∀ i : grid0.Coords, EltTy.bits .f32 = 32 ∨ (Rect.block (s := S4096x1024) S512x512.size (cc0_transform_3 i) (hinb0_3 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== Proof.Spec.lean ====
/-
  What both programs compute, as one function of the three argument arrays, and the one law of
  extended-real arithmetic that joins their two spellings of it.

  For `x` of 4096 rows and 1024 columns, `w` of 1024 rows and 1024 columns and `b` of 1024 entries, the
  entry of `x · wᵀ + b` at row `r` and column `n` is the sum over `k` of `x r k · w n k`, plus `b n`
  (`affine`). One program takes that sum over all 1024 values of `k` at once; the other starts from zero, adds
  the sum over the first 512, then adds the sum over the last 512. Addition of extended reals is associative and
  `0` is its unit, so the two agree at every argument, infinite ones included (`sum_two_halves`): nothing here
  needs an entry to be finite.
-/
import Idealize.ShloMosaic.PureOps.Ideal
import Idealize.ShloMosaic.Lib.ValueIdx
import Mathlib.Algebra.BigOperators.Fin

noncomputable section

namespace Cert.Spec

open Idealize.ShloMosaic Idealize.ShloMosaic.ValueIdx
open scoped BigOperators

/-- The entry of `x · wᵀ + b` at `i`: row `i 0` of `x` against row `i 1` of `w`, summed over the 1024 columns
    they share, plus entry `i 1` of `b`. -/
def affine (x : (⟨2, ![4096, 1024]⟩ : Shape).Idx → EReal) (w : (⟨2, ![1024, 1024]⟩ : Shape).Idx → EReal)
    (b : (⟨1, ![1024]⟩ : Shape).Idx → EReal) : (⟨2, ![4096, 1024]⟩ : Shape).Idx → EReal :=
  fun i => (∑ k : Fin 1024, x (ix2 (i 0) k) * w (ix2 (i 1) k)) + b (ix1 (i 1))

/-- `affine` at an index given by its two coordinates. -/
theorem affine_ix2 (x : (⟨2, ![4096, 1024]⟩ : Shape).Idx → EReal) (w : (⟨2, ![1024, 1024]⟩ : Shape).Idx → EReal)
    (b : (⟨1, ![1024]⟩ : Shape).Idx → EReal) (r : Fin 4096) (n : Fin 1024) :
    affine x w b (ix2 r n) = (∑ k : Fin 1024, x (ix2 r k) * w (ix2 n k)) + b (ix1 n) := rfl

/-- A sum of 1024 extended reals is zero plus the sum of its first 512 terms, plus the sum of its last 512:
    `0` is the unit of addition and a sum over `512 + 512` indices splits at 512. -/
theorem sum_two_halves (f : Fin 1024 → EReal) :
    (0 + ∑ k : Fin 512, f (Fin.castAdd 512 k)) + ∑ k : Fin 512, f (Fin.natAdd 512 k) = ∑ k : Fin 1024, f k := by
  rw [zero_add]
  exact (Fin.sum_univ_add (a := 512) (b := 512) f).symm

end Cert.Spec

end
-- ==== Proof.KernelValue.lean ====
/-
  The value of the row-blocked affine map: the array the kernel leaves is `x · wᵀ + b`.

  The 4096 rows of `x` are cut into four blocks of 1024 rows, one per grid point. At point `t` the body sees rows
  `1024·t … 1024·t + 1023` of `x`, all of `w`, and the bias as a single row of 1024 entries (the host reshaped the
  vector `b` into that row before the call). It narrows `x` and `w` to a shorter float format — on extended reals
  that changes nothing —, contracts the second axis of the block of `x` against the second axis of `w` starting from
  the zero array, so entry `(p, q)` of the product is `∑ k, x (1024·t + p, k) · w (q, k)`, adds the bias row to every
  row, and writes the result back over the same rows of the output.

  The proof goes from the inside out. First the body's arithmetic at one entry `(p, q)` of a block, over arbitrary
  block contents. Then what the three input blocks at point `t` hold in terms of the argument arrays. Together they
  say that point `t` writes rows `1024·t … 1024·t + 1023` of `Cert.Spec.affine x w b`. Every row `r` lies in the block of
  point `r / 1024`, so the four blocks fill the output array, which therefore ends as `Cert.Spec.affine x w b`.
  No entry needs to be finite anywhere: only the definition of the product and of the sum are used.
-/
import proofs.«121675_g2000605864221345_pallasbulk_1315_17_alg».proof.Proof.Gen.KernelIdeal.Value
import proofs.«121675_g2000605864221345_pallasbulk_1315_17_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

noncomputable section

namespace Cert.KernelIdeal.Hand

open Cert.KernelIdeal Cert.KernelIdeal.Gen Idealize.ShloMosaic Idealize.ShloMosaic.TcCoe Idealize.SL.Sem
open Idealize.ShloMosaic.ValueIdx
open scoped BigOperators

variable (m : (ℓ : Loc nD τ sig) → Buf (Elt Ideal) ℓ) (ρ : Dev nD → PrngReg)

/-! ## The bias as the call finds it -/

/-- Before the call the host lays the 1024 bias entries out as one row: the array the call's third window reads is
    the bias vector recast to 1 × 1024. -/
theorem bias_window_eq (c : Dev nD) :
    (V m c main_v0 : S1x1024.Idx → EReal)
      = shapeCast S1x1024 (m ((c : Thread nD τ).loc main_arg2) : S1024.Idx → EReal) shapeCasts_S1024_S1x1024 := by
  dsimp only [Gen.V, Gen.hostOps0]; after_results; rfl

/-- Entry `(u, q)` of that row is entry `q` of the bias vector: a recast keeps the row-major position, and
    `u = 0` contributes nothing to it. -/
theorem bias_window_apply (c : Dev nD) (u : Fin 1) (q : Fin 1024) :
    (V m c main_v0 : S1x1024.Idx → EReal) (ix2 u q)
      = (m ((c : Thread nD τ).loc main_arg2) : S1024.Idx → EReal) (ix1 q) := by
  rw [bias_window_eq]; exact shapeCast_a_1a_apply _ _ u q

/-! ## Which entries of the two operands meet in the product

The product contracts axis 1 of the left operand with axis 1 of the right one; axis 0 of each survives, the left
one's as the result's row and the right one's as the result's column. So at result entry `i` and contraction
position `k` the left operand is read at `(i 0, k)` and the right operand at `(i 1, k)`. -/

/-- The left operand's row is the result's row. -/
theorem left_operand_row (i : S1024x1024.Idx) (k : dot_S1024x1024_S1024x1024_S1024x1024_1_1_0_0_n_n.contr.Idx) :
    (dot_S1024x1024_S1024x1024_S1024x1024_1_1_0_0_n_n.lhsIdx i k 0).val = (i 0).val := by
  unfold DotDims.lhsIdx
  rw [dif_neg (show ¬(0 : Fin S1024x1024.rank) ∈ dot_S1024x1024_S1024x1024_S1024x1024_1_1_0_0_n_n.lhsBatch by decide),
    dif_pos (show (0 : Fin S1024x1024.rank) ∈ dot_S1024x1024_S1024x1024_S1024x1024_1_1_0_0_n_n.lhsNonContracting by decide)]
  rfl

/-- The left operand's column is the contraction position. -/
theorem left_operand_col (i : S1024x1024.Idx) (k : dot_S1024x1024_S1024x1024_S1024x1024_1_1_0_0_n_n.contr.Idx) :
    (dot_S1024x1024_S1024x1024_S1024x1024_1_1_0_0_n_n.lhsIdx i k 1).val = (k ⟨0, by decide⟩).val :=
  dot_S1024x1024_S1024x1024_S1024x1024_1_1_0_0_n_n.lhsIdx_val_of_single rfl i k

/-- The right operand's row is the result's column. -/
theorem right_operand_row (i : S1024x1024.Idx) (k : dot_S1024x1024_S1024x1024_S1024x1024_1_1_0_0_n_n.contr.Idx) :
    (dot_S1024x1024_S1024x1024_S1024x1024_1_1_0_0_n_n.rhsIdx i k 0).val = (i 1).val := by
  unfold DotDims.rhsIdx
  rw [dif_neg (show ¬(0 : Fin S1024x1024.rank) ∈ dot_S1024x1024_S1024x1024_S1024x1024_1_1_0_0_n_n.rhsBatch by decide),
    dif_pos (show (0 : Fin S1024x1024.rank) ∈ dot_S1024x1024_S1024x1024_S1024x1024_1_1_0_0_n_n.rhsNonContracting by decide)]
  rfl

/-- The right operand's column is the contraction position. -/
theorem right_operand_col (i : S1024x1024.Idx) (k : dot_S1024x1024_S1024x1024_S1024x1024_1_1_0_0_n_n.contr.Idx) :
    (dot_S1024x1024_S1024x1024_S1024x1024_1_1_0_0_n_n.rhsIdx i k 1).val = (k ⟨0, by decide⟩).val :=
  dot_S1024x1024_S1024x1024_S1024x1024_1_1_0_0_n_n.rhsIdx_val_of_single rfl i k

/-! ## The body's arithmetic at one entry -/

/-- For any block `x` of 1024 rows, any `w` and any bias row `b`, entry `(p, q)` of what the body stores is
    `∑ k, x (p, k) · w (q, k) + b (0, q)`. The sum of the two arrays is entrywise; the bias row broadcast over 1024
    rows reads its one row at column `q`; the product into the zero array is the bare sum of products over the
    contraction positions, which are in bijection with `Fin 1024`; narrowing an extended real is the identity. -/
theorem body_entry (x w : Vec Ideal S1024x1024 .f32) (b : Vec Ideal S1x1024 .f32) (p q : Fin 1024) :
    k0_pay1 x w b (ix2 p q) = (∑ k : Fin 1024, x (ix2 p k) * w (ix2 q k)) + b (ix2 (0 : Fin 1) q) := by
  unfold k0_pay1
  show addf (matmul dot_S1024x1024_S1024x1024_S1024x1024_1_1_0_0_n_n none
        (truncf .bf16 (x : FVec Ideal S1024x1024 .f32) bitsLt_bf16_f32)
        (truncf .bf16 (w : FVec Ideal S1024x1024 .f32) bitsLt_bf16_f32) (constant (F := Ideal) S1024x1024 .f32 0x00000000#32))
      (broadcastTo S1024x1024 (shapeCast S1x1024 (b : FVec Ideal S1x1024 .f32) shapeCasts_S1x1024_S1x1024)
        broadcasts_S1x1024_S1024x1024) (ix2 p q) = _
  rw [addf_apply, broadcastTo_1b_ab_apply, shapeCast_self]
  refine congrArg (· + b (ix2 (0 : Fin 1) q)) ?_
  simp only [matmul]
  rw [Ideal.matmul_constant_zero_apply,
    ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 p q)
      ((contrEquiv1 dot_S1024x1024_S1024x1024_S1024x1024_1_1_0_0_n_n 1024 rfl rfl).symm k) = ix2 p k :=
    funext fun a => Fin.ext (by
      match a with
      | ⟨0, _⟩ => exact left_operand_row _ _
      | ⟨1, _⟩ => exact (left_operand_col _ _).trans hk)
  have er : dot_S1024x1024_S1024x1024_S1024x1024_1_1_0_0_n_n.rhsIdx (ix2 p q)
      ((contrEquiv1 dot_S1024x1024_S1024x1024_S1024x1024_1_1_0_0_n_n 1024 rfl rfl).symm k) = ix2 q k :=
    funext fun a => Fin.ext (by
      match a with
      | ⟨0, _⟩ => exact right_operand_row _ _
      | ⟨1, _⟩ => exact (right_operand_col _ _).trans hk)
  rw [el, er]
  rfl

/-! ## The blocks at a grid point

A block's entry `y` sits in its array at coordinate (block index) × (block size) + `y`'s coordinate, axis by axis.
The block indices at the four points are decided once. -/

/-- Every block here starts at offset zero of its own buffer. -/
theorem zero_offsets : (![0, 0] : Fin 2 → Nat) = fun _ => 0 := funext fun a => by fin_cases a <;> rfl

/-- The block indices: at point `t` the windows over `x` and over the output are at row block `t`; the windows over
    `w` and over the bias row never move. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of block `t` is a row of the 4096-row arrays: there are four blocks of 1024 rows. -/
theorem row_lt (t : Fin cfg0.N) (p : Fin 1024) : t.val * 1024 + p.val < 4096 := by
  have hN : cfg0.N = 4 := N_0
  have := t.isLt
  omega

/-- Entry `(p, k)` of the block of `x` at point `t` is `x (1024·t + p, k)`. -/
theorem x_block_apply (c : Dev nD) (t : Fin cfg0.N) (p k : Fin 1024) (i : S4096x1024.Idx)
    (h0 : (i 0).val = t.val * 1024 + p.val) (h1 : (i 1).val = k.val) :
    (iblk m c 0 t : Vec Ideal S1024x1024 .f32) (ix2 p k)
      = (m ((c : Thread nD τ).loc main_arg0) : S4096x1024.Idx → EReal) i := by
  obtain ⟨e0, e1, -⟩ := block_indices t
  rw [← V_main_arg0 m c]
  show V m c main_arg0 (((cfg0.win 0).blk t).view.emb (ix2 p k)) = V m c main_arg0 i
  refine congrArg (V m c main_arg0) (funext fun a => Fin.ext ?_)
  match a with
  | ⟨0, _⟩ => show win0_0.index t (0 : Fin 2) * 1024 + 1 * p.val = (i 0).val; omega
  | ⟨1, _⟩ => show win0_0.index t (1 : Fin 2) * 1024 + 1 * k.val = (i 1).val; omega

/-- The block of `w` at every point is all of `w`. -/
theorem w_block_apply (c : Dev nD) (t : Fin cfg0.N) (q k : Fin 1024) :
    (iblk m c 1 t : Vec Ideal S1024x1024 .f32) (ix2 q k)
      = (m ((c : Thread nD τ).loc main_arg1) : S1024x1024.Idx → EReal) (ix2 q k) := by
  obtain ⟨-, -, e0, e1, -⟩ := block_indices t
  rw [← V_main_arg1 m c]
  show V m c main_arg1 (((cfg0.win 1).blk t).view.emb (ix2 q k)) = V m c main_arg1 (ix2 q k)
  refine congrArg (V m c main_arg1) (funext fun a => Fin.ext ?_)
  match a with
  | ⟨0, _⟩ => show win0_1.index t (0 : Fin 2) * 1024 + 1 * q.val = q.val; omega
  | ⟨1, _⟩ => show win0_1.index t (1 : Fin 2) * 1024 + 1 * k.val = k.val; omega

/-- The bias block at every point is the whole bias row, whose entry `(0, q)` is `b q`. -/
theorem bias_block_apply (c : Dev nD) (t : Fin cfg0.N) (q : Fin 1024) :
    (iblk m c 2 t : Vec Ideal S1x1024 .f32) (ix2 (0 : Fin 1) q)
      = (m ((c : Thread nD τ).loc main_arg2) : S1024.Idx → EReal) (ix1 q) := by
  obtain ⟨-, -, -, -, e0, e1, -⟩ := block_indices t
  rw [← bias_window_apply m c (0 : Fin 1) q]
  show V m c main_v0 (((cfg0.win 2).blk t).view.emb (ix2 (0 : Fin 1) q)) = V m c main_v0 (ix2 (0 : Fin 1) q)
  refine congrArg (V m c main_v0) (funext fun a => Fin.ext ?_)
  match a with
  | ⟨0, _⟩ => show win0_2.index t (0 : Fin 2) * 1 + 1 * (0 : Fin 1).val = (0 : Fin 1).val; omega
  | ⟨1, _⟩ => show win0_2.index t (1 : Fin 2) * 1024 + 1 * q.val = q.val; omega

/-! ## What one point writes back -/

/-- Point `t` writes rows `1024·t … 1024·t + 1023` of `x · wᵀ + b`: entry `(p, q)` of its block is the body's
    arithmetic on the three input blocks, which by the block reads above is
    `∑ k, x (1024·t + p, k) · w (q, k) + b q`, the specification at `(1024·t + p, q)` — the array entry that block
    entry `(p, q)` of the output window lands on. -/
theorem point_writes_its_rows (c : Dev nD) (t : Fin cfg0.N) :
    (dats m 0 c).flushed 3 t = ((cfg0.win 3).blk t).view.read (Elt Ideal)
      (Cert.Spec.affine (m ((c : Thread nD τ).loc main_arg0)) (m ((c : Thread nD τ).loc main_arg1))
        (m ((c : Thread nD τ).loc main_arg2))) := by
  rw [Value.flushed3]
  unfold Gen.out0_3
  rw [View.canon_unit_zero zero_offsets]
  simp only [View.ld_unit_zero (S := S1024x1024) zero_offsets, View.ld_unit_zero (S := S1x1024) zero_offsets]
  obtain ⟨-, -, -, -, -, -, e0, e1⟩ := block_indices t
  funext j
  obtain ⟨p, q, hpq⟩ : ∃ p q : Fin 1024, (cfg0.win 3).xinj (grid0.coords t) j = ix2 p q :=
    ⟨_, _, eq_ix2 (n0 := 1024) (n1 := 1024) _⟩
  show k0_pay1 (iblk m c 0 t) (iblk m c 1 t) (iblk m c 2 t) ((cfg0.win 3).xinj (grid0.coords t) j)
    = Cert.Spec.affine (m ((c : Thread nD τ).loc main_arg0)) (m ((c : Thread nD τ).loc main_arg1))
        (m ((c : Thread nD τ).loc main_arg2)) (((cfg0.win 3).blk t).view.emb j)
  rw [hpq]
  refine (body_entry _ _ _ p q).trans ?_
  have hp : (j 0).val = p.val := congrArg (fun i : S1024x1024.Idx => (i 0).val) hpq
  have hq : (j 1).val = q.val := congrArg (fun i : S1024x1024.Idx => (i 1).val) hpq
  have hi : ((cfg0.win 3).blk t).view.emb j = ix2 (⟨t.val * 1024 + p.val, row_lt t p⟩ : Fin 4096) q :=
    funext fun a => Fin.ext (by
      match a with
      | ⟨0, _⟩ => show win0_3.index t (0 : Fin 2) * 1024 + 1 * (j 0).val = t.val * 1024 + p.val; omega
      | ⟨1, _⟩ => show win0_3.index t (1 : Fin 2) * 1024 + 1 * (j 1).val = q.val; omega)
  rw [hi, Cert.Spec.affine_ix2, bias_block_apply m c t q]
  refine congrArg (· + _) (Finset.sum_congr rfl fun k _ => ?_)
  rw [x_block_apply m c t p k (ix2 (⟨t.val * 1024 + p.val, row_lt t p⟩ : Fin 4096) k) rfl rfl,
    w_block_apply m c t q k]

/-! ## The four blocks fill the output -/

/-- An entry of the output is in point `t`'s block exactly when, on each axis, its coordinate is in the block's
    range there. -/
theorem mem_rows_of_point (t : Fin cfg0.N) (i : S4096x1024.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v1).slice (win0_3.rect t)).set ↔ _
  rw [View.set_slice_whole, Rect.mem_set_unit]
  exact Iff.rfl

/-- Row `r` lies in the block of point `r / 1024`, whose rows are `1024·(r / 1024) … 1024·(r / 1024) + 1023`, and every
    column lies in every block; each point writes its block back. So every entry of the output is written. -/
theorem every_entry_written (i : S4096x1024.Idx) :
    ∃ t : Fin cfg0.N, (cfg0.win 3).flush t = true ∧ i ∈ ((cfg0.win 3).blk t).view.set := by
  have hN : cfg0.N = 4 := N_0
  have hi0 : (i 0).val < 4096 := (i 0).isLt
  have hi1 : (i 1).val < 1024 := (i 1).isLt
  refine ⟨⟨(i 0).val / 1024, by omega⟩, flush0_3 _, ?_⟩
  obtain ⟨-, -, -, -, -, -, e0, e1⟩ := block_indices ⟨(i 0).val / 1024, by omega⟩
  rw [mem_rows_of_point]
  intro a
  match a with
  | ⟨0, _⟩ =>
    show win0_3.index ⟨(i 0).val / 1024, _⟩ (0 : Fin 2) * 1024 ≤ (i 0).val
      ∧ (i 0).val < win0_3.index ⟨(i 0).val / 1024, _⟩ (0 : Fin 2) * 1024 + 1024
    rw [e0]; show (i 0).val / 1024 * 1024 ≤ (i 0).val ∧ (i 0).val < (i 0).val / 1024 * 1024 + 1024; omega
  | ⟨1, _⟩ =>
    show win0_3.index ⟨(i 0).val / 1024, _⟩ (1 : Fin 2) * 1024 ≤ (i 1).val
      ∧ (i 1).val < win0_3.index ⟨(i 0).val / 1024, _⟩ (1 : Fin 2) * 1024 + 1024
    rw [e1]; omega

/-- Each point writes its rows of `x · wᵀ + b` and the rows of the four points are all the rows: after the last
    point the output array is `x · wᵀ + b`. -/
theorem output_is_affine (c : Dev nD) :
    (dats m 0 c).arrAt 3 cfg0.N
      = Cert.Spec.affine (m ((c : Thread nD τ).loc main_arg0)) (m ((c : Thread nD τ).loc main_arg1))
          (m ((c : Thread nD τ).loc main_arg2)) :=
  (dats m 0 c).arrAt_eq_of_cover 3 _ (fun t _ => point_writes_its_rows m c t) every_entry_written

/-! ## The run -/

/-- From any memory the program terminates; the result array then holds `x · wᵀ + b` of the three argument arrays
    as they were at the start, and the three argument arrays are unchanged. -/
theorem run : θ_run (defs (F := Ideal)) (onTc (τ := τ) (main (F := Ideal))) ⟨m, fun _ => 0, ρ⟩ fun r => ∀ c : Dev nD,
      r.2.mem ((c : Thread nD τ).loc main_v1) = Cert.Spec.affine (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (output_is_affine m c), (h c).2⟩)
    (Cert.KernelIdeal.Value.run_blocks m ρ)

end Cert.KernelIdeal.Hand

end
-- ==== Proof.RefPieces.lean ====
/-
  What a run of two consecutive grid points of the tiled program leaves in the output block, as a term over the
  blocks the two points were handed — for any reading of the floats.

  The 32 grid points come in 16 runs of two. The even point of a run zeroes the 512 × 512 accumulator and adds
  its block product into it; it stores nothing into the output block. The odd point adds its block product into
  what the even point left and stores that sum plus the bias row as the output block, which is then written back
  to the result array. So after an odd point `t` the output block is
      add_bias (accumulate (accumulate zero (x-block at t-1) (w-block at t-1)) (x-block at t) (w-block at t)) (bias block at t)
  where `zero`, `accumulate` and `add_bias` are the three values the program's stores carry
  (`output_at_odd`). Each store covers its whole buffer, so what a buffer holds afterwards is the last value
  stored into it, and a load of the accumulator right after it was zeroed reads the zero block.
-/
import proofs.«121675_g2000605864221345_pallasbulk_1315_17_alg».proof.Proof.Gen.ReferenceIdeal.Value
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.ReferenceIdeal.Hand

open Cert.ReferenceIdeal Cert.ReferenceIdeal.Gen

variable {F : FTy → Type} [FloatOps F]

/-- Every load and store of the body starts at the origin of its buffer. -/
theorem origin : (![0, 0] : Fin 2 → Nat) = fun _ => 0 := funext fun a => by fin_cases a <;> rfl

/-- THE EVEN POINT of a run leaves in the accumulator the zero block with the point's block product added:
    of its two stores into the accumulator the later one covers it whole, and the load between them reads the zero
    block the first one stored. -/
theorem accumulator_after_even (c : Dev nD) (i : grid0.Coords)
    (a3 : Memref sig .tc .vmem S512x512 .f32) (h3 : a3.IsWhole) (a4 : Memref sig .tc .vmem S512x512 .f32) (h4 : a4.IsWhole)
    (a5 : Memref sig .tc .vmem S1x512 .f32) (h5 : a5.IsWhole) (a6 : Memref sig .tc .vmem S512x512 .f32) (h6 : a6.IsWhole)
    (a7 : Memref sig .tc .vmem S512x512 .f32) (h7 : a7.IsWhole) (hc0 : cond0_0 i) (hc1 : ¬cond0_1 i)
    (x0 : Vec F S512x512 .f32) (x1 : Vec F S512x512 .f32) (x2 : Vec F S1x512 .f32) :
    sout0_A_0 c i a3 h3 a4 h4 a5 h5 a6 h6 a7 h7 hc0 hc1 x0 x1 x2 = k0_pay2 (k0_pay1 (F := F)) x0 x1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S512x512) origin, View.readCov_unit_zero (S := S512x512) _ origin]
  simp only [View.readAt_eq_ld, h3.read_unread, h4.read_unread, View.ld_unit_zero (S := S512x512) origin]

/-- THE ODD POINT of a run, finding `acc` in the accumulator, leaves in the output block `acc` with the point's
    block product added and then the bias row added: its one store into the output block covers it whole, and the
    load of the accumulator before it reads what the point's own store into the accumulator left. -/
theorem output_after_odd (c : Dev nD) (i : grid0.Coords)
    (a3 : Memref sig .tc .vmem S512x512 .f32) (h3 : a3.IsWhole) (a4 : Memref sig .tc .vmem S512x512 .f32) (h4 : a4.IsWhole)
    (a5 : Memref sig .tc .vmem S1x512 .f32) (h5 : a5.IsWhole) (a6 : Memref sig .tc .vmem S512x512 .f32) (h6 : a6.IsWhole)
    (a7 : Memref sig .tc .vmem S512x512 .f32) (h7 : a7.IsWhole) (hc0 : ¬cond0_0 i) (hc1 : cond0_1 i)
    (x0 : Vec F S512x512 .f32) (x1 : Vec F S512x512 .f32) (x2 : Vec F S1x512 .f32) (acc : Vec F S512x512 .f32) :
    out0_B_3 c i a3 h3 a4 h4 a5 h5 a6 h6 a7 h7 hc0 hc1 x0 x1 x2 acc = k0_pay3 (k0_pay2 acc x0 x1) x2 := by
  unfold out0_B_3
  rw [View.read_writes_eq_canon _ _ _ (cover0_B_3 c i a3 h3 a4 h4 a5 h5 a6 h6 a7 h7 hc0 hc1 x0 x1 x2 acc)]
  unfold kernelRun0_B
  dsimp only
  sl_unfold_words
  rw [View.canon_unit_zero (S := S512x512) origin, View.readCov_unit_zero (S := S512x512) _ origin]
  simp only [View.readAt_eq_ld, h3.read_unread, h4.read_unread, h5.read_unread, h7.read_unread,
    View.ld_unit_zero (S := S512x512) origin, View.ld_unit_zero (S := S1x512) origin]

variable (m : (ℓ : Loc nD τ sig) → Buf (Elt F) ℓ)

/-- What the buffers hold after a point depends on the point's position only. -/
theorem outsAt0_congr (c : Dev nD) (n n' : ℕ) (h : n < cfg0.N) (h' : n' < cfg0.N) (e : n = n') :
    outsAt0 m c n h = outsAt0 m c n' h' := by subst e; rfl

/-- THE RUN OF TWO: after an odd point `t`, with `s` the point before it, the output block is the zero block with
    `s`'s block product and then `t`'s block product added, plus `t`'s bias row. -/
theorem output_at_odd (c : Dev nD) (s t : Fin cfg0.N) (hst : s.val + 1 = t.val) (h1 : t.val % 2 = 1) :
    (outsAt0 m c t.val t.isLt).1
      = k0_pay3 (k0_pay2 (k0_pay2 (k0_pay1 (F := F)) (iblk m c 0 s) (iblk m c 1 s)) (iblk m c 0 t) (iblk m c 1 t)) (iblk m c 2 t) := by
  have h0 : ¬t.val % 2 = 0 := by omega
  have h0' : s.val % 2 = 0 := by omega
  have h1' : ¬s.val % 2 = 1 := by omega
  have eA : (outsAt0 m c (t.val - 1) (Nat.lt_of_le_of_lt (Nat.sub_le _ _) t.isLt)).2
      = k0_pay2 (k0_pay1 (F := F)) (iblk m c 0 s) (iblk m c 1 s) := by
    rw [outsAt0_congr m c (t.val - 1) s.val _ s.isLt (by omega), outsAt0_A m c s h0' h1']
    dsimp only
    exact accumulator_after_even (F := F) c (grid0.coords s) (ms0_0 s) (hs0_0 s) (ms0_1 s) (hs0_1 s) (ms0_2 s) (hs0_2 s)
      (ms0_3 s) (hs0_3 s) scM0_0 (Memref.isWhole_whole _) ((hcond0_0 s).mpr h0') (fun h => h1' ((hcond0_1 s).mp h))
      (iblk m c 0 s) (iblk m c 1 s) (iblk m c 2 s)
  rw [outsAt0_B m c t h0 h1]
  dsimp only
  rw [eA]
  exact output_after_odd (F := F) c (grid0.coords t) (ms0_0 t) (hs0_0 t) (ms0_1 t) (hs0_1 t) (ms0_2 t) (hs0_2 t)
      (ms0_3 t) (hs0_3 t) scM0_0 (Memref.isWhole_whole _) (fun h => h0 ((hcond0_0 t).mp h)) ((hcond0_1 t).mpr h1)
      (iblk m c 0 t) (iblk m c 1 t) (iblk m c 2 t) (k0_pay2 (k0_pay1 (F := F)) (iblk m c 0 s) (iblk m c 1 s))

end Cert.ReferenceIdeal.Hand

end
-- ==== Proof.RefArith.lean ====
/-
  The arithmetic of one grid point of the tiled program, entry by entry, at the extended reals.

  A grid point holds a 512 × 512 accumulator. It may first set the accumulator to zero; it then adds to it the
  product of a 512 × 512 block of `x` (rows `p`, columns `k`) with a 512 × 512 block of the transposed weights
  (rows `k`, columns `q`): entry `(p, q)` of that product is the sum over the 512 values of `k` of
  `x p k · w k q`, because a matrix product into a zero accumulator is that plain sum here. At the last
  point of a run the accumulator plus one row of 512 bias entries, the same row for every `p`, is the output
  block. Two such points in a row, the first zeroing the accumulator, leave at `(p, q)`
  `((0 + Σₖ xa p k · wa k q) + Σₖ xb p k · wb k q) + bias q` (`block_entry`).
-/
import proofs.«121675_g2000605864221345_pallasbulk_1315_17_alg».proof.Proof.Gen.ReferenceIdeal.Skeleton
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx
open scoped BigOperators

namespace Cert.ReferenceIdeal.Hand

open Cert.ReferenceIdeal Cert.ReferenceIdeal.Gen

/-- The dimension numbers of the block product: the left operand's columns are contracted against the right
    operand's rows. -/
abbrev blockDot := dot_S512x512_S512x512_S512x512_1_0_0_1_n_n

/-! ### Which entries of its operands the block product reads at output entry `j` and contraction position `s` -/

/-- The left operand is read in the output's row, -/
theorem left_row (j : S512x512.Idx) (s : blockDot.contr.Idx) : (blockDot.lhsIdx j s 0).val = (j 0).val := by
  unfold DotDims.lhsIdx
  rw [dif_neg (show ¬(0 : Fin S512x512.rank) ∈ blockDot.lhsBatch by decide),
    dif_pos (show (0 : Fin S512x512.rank) ∈ blockDot.lhsNonContracting by decide)]
  rfl

/-- at the column the contraction position names; -/
theorem left_col (j : S512x512.Idx) (s : blockDot.contr.Idx) : (blockDot.lhsIdx j s 1).val = (s ⟨0, by decide⟩).val :=
  blockDot.lhsIdx_val_of_single rfl j s

/-- the right operand at the row the contraction position names, -/
theorem right_row (j : S512x512.Idx) (s : blockDot.contr.Idx) : (blockDot.rhsIdx j s 0).val = (s ⟨0, by decide⟩).val :=
  blockDot.rhsIdx_val_of_single rfl j s

/-- in the output's column. -/
theorem right_col (j : S512x512.Idx) (s : blockDot.contr.Idx) : (blockDot.rhsIdx j s 1).val = (j 1).val := by
  unfold DotDims.rhsIdx
  rw [dif_neg (show ¬(1 : Fin S512x512.rank) ∈ blockDot.rhsBatch by decide),
    dif_pos (show (1 : Fin S512x512.rank) ∈ blockDot.rhsNonContracting by decide)]
  rfl

/-! ### The three stored values at an entry -/

/-- The value a run's first point stores first: zero everywhere. -/
theorem zero_block_apply (j : S512x512.Idx) : k0_pay1 (F := Ideal) j = 0 := by
  unfold k0_pay1
  simp only [shapeCast_self]
  exact Ideal.ofBits_zero_f32

/-- Entry `(p, q)` of the product of two 512 × 512 blocks into a zero accumulator: the sum over `k` of
    `x p k · w k q`. The contraction positions are the 512 values of `k`. -/
theorem product_apply (x w : FVec Ideal S512x512 .f32) (p q : Fin 512) :
    matmul (F := Ideal) blockDot none x w (constant (F := Ideal) S512x512 .f32 0x00000000#32) (ix2 p q)
      = ∑ k : Fin 512, x (ix2 p k) * w (ix2 k q) := by
  simp only [matmul]
  rw [Ideal.matmul_constant_zero_apply, ← Equiv.sum_comp (contrEquiv1 blockDot 512 rfl rfl).symm]
  refine Finset.sum_congr rfl fun k _ => ?_
  have hk := contrEquiv1_symm_val blockDot 512 rfl rfl k
  have el : blockDot.lhsIdx (ix2 p q) ((contrEquiv1 blockDot 512 rfl rfl).symm k) = ix2 p k := funext fun a => Fin.ext (by
    match a with
    | ⟨0, _⟩ => exact left_row _ _
    | ⟨1, _⟩ => exact (left_col _ _).trans hk)
  have er : blockDot.rhsIdx (ix2 p q) ((contrEquiv1 blockDot 512 rfl rfl).symm k) = ix2 k q := funext fun a => Fin.ext (by
    match a with
    | ⟨0, _⟩ => exact (right_row _ _).trans hk
    | ⟨1, _⟩ => exact right_col _ _)
  rw [el, er]

/-- The accumulator after a point, at `(p, q)`: what it held there plus the block product's entry. -/
theorem accumulate_apply (acc x w : Vec Ideal S512x512 .f32) (p q : Fin 512) :
    k0_pay2 (F := Ideal) acc x w (ix2 p q) = acc (ix2 p q) + ∑ k : Fin 512, x (ix2 p k) * w (ix2 k q) := by
  unfold k0_pay2
  simp only [shapeCast_self]
  exact congrArg (acc (ix2 p q) + ·) (product_apply x w p q)

/-- The output block at `(p, q)`: the accumulator there plus entry `q` of the one bias row. -/
theorem add_bias_apply (acc : Vec Ideal S512x512 .f32) (b : Vec Ideal S1x512 .f32) (p q : Fin 512) :
    k0_pay3 (F := Ideal) acc b (ix2 p q) = acc (ix2 p q) + b (ix2 0 q) := by
  unfold k0_pay3
  simp only [shapeCast_self]
  exact congrArg (acc (ix2 p q) + ·) (broadcastTo_1b_ab_apply b _ p q)

/-- Two points in a row, the first zeroing the accumulator, then the bias: at entry `(p, q)` the output block is
    zero plus the first block product's entry, plus the second's, plus the bias entry of column `q`. -/
theorem block_entry (xa wa xb wb : Vec Ideal S512x512 .f32) (b : Vec Ideal S1x512 .f32) (p q : Fin 512) :
    k0_pay3 (F := Ideal) (k0_pay2 (k0_pay2 (k0_pay1 (F := Ideal)) xa wa) xb wb) b (ix2 p q)
      = ((0 + ∑ k : Fin 512, xa (ix2 p k) * wa (ix2 k q)) + ∑ k : Fin 512, xb (ix2 p k) * wb (ix2 k q))
        + b (ix2 0 q) := by
  rw [add_bias_apply, accumulate_apply, accumulate_apply, zero_block_apply]

end Cert.ReferenceIdeal.Hand

end
-- ==== Proof.RefBlocks.lean ====
/-
  Which entries of the three argument arrays a grid point of the tiled program sees.

  The grid has 8 · 2 · 2 points; point `t` has row-block coordinate `t / 4`, column-block coordinate
  `t / 2 % 2` and contraction-block coordinate `t % 2`. Before the grid runs, the host transposes the weights
  (entry `(k, n)` of the transposed array is entry `(n, k)` of `w`) and lays the bias out as one row. At point
  `t` the program is handed
    · the 512 × 512 block of `x` at block position `(t / 4, t % 2)`: its entry `(p, k)` is
      `x (512 · (t / 4) + p) (512 · (t % 2) + k)`;
    · the 512 × 512 block of the transposed weights at `(t % 2, t / 2 % 2)`: its entry `(k, q)` is
      `w (512 · (t / 2 % 2) + q) (512 · (t % 2) + k)`;
    · the 1 × 512 block of the bias row at `(0, t / 2 % 2)`: its entry `q` is `b (512 · (t / 2 % 2) + q)`.
  An entry of a block sits in its array, on each axis, at the block's position times the block's size plus the
  entry's own coordinate.
-/
import proofs.«121675_g2000605864221345_pallasbulk_1315_17_alg».proof.Proof.Gen.ReferenceIdeal.Value
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.ReferenceIdeal.Hand

open Cert.ReferenceIdeal Cert.ReferenceIdeal.Gen

variable (m : (ℓ : Loc nD τ sig) → Buf (Elt Ideal) ℓ)

/-! ### The two arrays the host prepares -/

/-- When the grid starts, the second operand's array is the transpose of the weights. -/
theorem weights_transposed (c : Dev nD) :
    (V m c main_v0 : S1024x1024.Idx → EReal)
      = transpose S1024x1024 [1, 0] (m ((c : Thread nD τ).loc main_arg1)) transposes_S1024x1024_S1024x1024_1_0 := by
  dsimp only [Gen.V, Gen.hostOps0]; after_results

/-- and the third operand's array is the bias laid out as one row of 1024 entries. -/
theorem bias_as_row (c : Dev nD) :
    (V m c main_v1 : S1x1024.Idx → EReal)
      = shapeCast S1x1024 (m ((c : Thread nD τ).loc main_arg2)) shapeCasts_S1024_S1x1024 := by
  dsimp only [Gen.V, Gen.hostOps0]; after_results; rfl

/-! ### Block positions -/

/-- The block position of each of the four arrays at point `t`, on both axes, from `t`'s three coordinates:
    decided once over the 32 points. -/
theorem block_positions : ∀ t : Fin cfg0.N,
    win0_0.index t (0 : Fin 2) = t.val / 4 ∧ win0_0.index t (1 : Fin 2) = t.val % 2
    ∧ win0_1.index t (0 : Fin 2) = t.val % 2 ∧ win0_1.index t (1 : Fin 2) = t.val / 2 % 2
    ∧ win0_2.index t (0 : Fin 2) = 0 ∧ win0_2.index t (1 : Fin 2) = t.val / 2 % 2
    ∧ win0_3.index t (0 : Fin 2) = t.val / 4 ∧ win0_3.index t (1 : Fin 2) = t.val / 2 % 2 :=
  (by decide +kernel : ∀ t : Fin grid0.N, _)

/-! ### The three input blocks, entry by entry -/

/-- Entry `y` of the block of `x` at point `t` is `x` at row `512 · (t / 4) + y 0`, column `512 · (t % 2) + y 1`. -/
theorem x_block (c : Dev nD) (t : Fin cfg0.N) (y : S512x512.Idx) (r k : Nat) (hr : r < 4096) (hk : k < 1024)
    (er : r = 512 * (t.val / 4) + (y 0).val) (ek : k = 512 * (t.val % 2) + (y 1).val) :
    iblk m c 0 t y = m ((c : Thread nD τ).loc main_arg0) (ix2 ⟨r, hr⟩ ⟨k, hk⟩) := by
  obtain ⟨e0, e1, -⟩ := block_positions t
  show V m c main_arg0 (((cfg0.win 0).blk t).view.emb y) = _
  rw [V_main_arg0]
  refine congrArg _ (funext fun a => Fin.ext ?_)
  match a with
  | ⟨0, _⟩ => show win0_0.index t (0 : Fin 2) * 512 + 1 * (y 0).val = r; omega
  | ⟨1, _⟩ => show win0_0.index t (1 : Fin 2) * 512 + 1 * (y 1).val = k; omega

/-- Entry `y` of the block of the transposed weights at point `t` is `w` at row `512 · (t / 2 % 2) + y 1`,
    column `512 · (t % 2) + y 0`: the block's rows run along the contraction, and the transpose swaps them back. -/
theorem wt_block (c : Dev nD) (t : Fin cfg0.N) (y : S512x512.Idx) (k n : Nat) (hk : k < 1024) (hn : n < 1024)
    (ek : k = 512 * (t.val % 2) + (y 0).val) (en : n = 512 * (t.val / 2 % 2) + (y 1).val) :
    iblk m c 1 t y = m ((c : Thread nD τ).loc main_arg1) (ix2 ⟨n, hn⟩ ⟨k, hk⟩) := by
  obtain ⟨-, -, e0, e1, -⟩ := block_positions t
  show V m c main_v0 (((cfg0.win 1).blk t).view.emb y) = _
  have e : ((cfg0.win 1).blk t).view.emb y = ix2 (⟨k, hk⟩ : Fin 1024) (⟨n, hn⟩ : Fin 1024) := funext fun a => Fin.ext (by
    match a with
    | ⟨0, _⟩ => show win0_1.index t (0 : Fin 2) * 512 + 1 * (y 0).val = k; omega
    | ⟨1, _⟩ => show win0_1.index t (1 : Fin 2) * 512 + 1 * (y 1).val = n; omega)
  rw [e, weights_transposed]
  exact transpose_ix2_apply _ _ _ _

/-- Entry `y` of the block of the bias row at point `t` is `b` at `512 · (t / 2 % 2) + y 1`. -/
theorem bias_block (c : Dev nD) (t : Fin cfg0.N) (y : S1x512.Idx) (n : Nat) (hn : n < 1024)
    (en : n = 512 * (t.val / 2 % 2) + (y 1).val) :
    iblk m c 2 t y = m ((c : Thread nD τ).loc main_arg2) (ix1 ⟨n, hn⟩) := by
  obtain ⟨-, -, -, -, e0, e1, -⟩ := block_positions t
  show V m c main_v1 (((cfg0.win 2).blk t).view.emb y) = _
  have hy : (y 0).val = 0 := by have h : (y 0).val < 1 := (y 0).isLt; omega
  have e : ((cfg0.win 2).blk t).view.emb y = ix2 (0 : Fin 1) (⟨n, hn⟩ : Fin 1024) := funext fun a => Fin.ext (by
    match a with
    | ⟨0, _⟩ => show win0_2.index t (0 : Fin 2) * 1 + 1 * (y 0).val = 0; omega
    | ⟨1, _⟩ => show win0_2.index t (1 : Fin 2) * 512 + 1 * (y 1).val = n; omega)
  rw [e, bias_as_row]
  exact shapeCast_a_1a_apply _ _ _ _

end Cert.ReferenceIdeal.Hand

end
-- ==== Proof.RefValue.lean ====
/-
  The value of the tiled program: the array it leaves is `x · wᵀ + b`.

  The output's 4096 × 1024 entries are cut into 8 × 2 blocks of 512 × 512. The block at row-block `r` and
  column-block `n` is produced by the run of two points `4r + 2n` and `4r + 2n + 1` and written back after the
  second of them, the only points that write anything back. By the run of two (the accumulator zeroed, two block
  products added, the bias row added) and by where each input block sits in its array, entry `(p, q)` of that
  block is
      ((0 + Σ_{k<512} x R k · w N k) + Σ_{k<512} x R (512 + k) · w N (512 + k)) + b N,
  with `R = 512 r + p` and `N = 512 n + q` — the first sum from the even point, whose blocks sit at
  contraction block 0, the second from the odd point, at contraction block 1. Splitting a sum over 1024 indices at
  512 (`Cert.Spec.sum_two_halves`) makes this the specification's entry at `(R, N)`, which is where block entry
  `(p, q)` lands in the array. The 16 blocks fill the array, so it ends as the specification.
-/
import proofs.«121675_g2000605864221345_pallasbulk_1315_17_alg».proof.Proof.Spec
import proofs.«121675_g2000605864221345_pallasbulk_1315_17_alg».proof.Proof.RefPieces
import proofs.«121675_g2000605864221345_pallasbulk_1315_17_alg».proof.Proof.RefArith
import proofs.«121675_g2000605864221345_pallasbulk_1315_17_alg».proof.Proof.RefBlocks

noncomputable section

open Idealize.ShloMosaic Idealize.ShloMosaic.TcCoe Idealize.SL.Sem Idealize.ShloMosaic.ValueIdx
open Idealize.ShloMosaic.Pipeline (Dat)
open scoped BigOperators

namespace Cert.ReferenceIdeal.Hand

open Cert.ReferenceIdeal Cert.ReferenceIdeal.Gen

variable (m : (ℓ : Loc nD τ sig) → Buf (Elt Ideal) ℓ) (ρ : Dev nD → PrngReg)

/-- `x · wᵀ + b` of this program's three argument arrays as they are at the start. -/
abbrev result (c : Dev nD) : S4096x1024.Idx → EReal :=
  Cert.Spec.affine (m ((c : Thread nD τ).loc main_arg0)) (m ((c : Thread nD τ).loc main_arg1))
    (m ((c : Thread nD τ).loc main_arg2))

/-- WHAT AN ODD POINT WRITES BACK is its block of `x · wᵀ + b`. -/
theorem odd_point_writes_its_block (c : Dev nD) (t : Fin cfg0.N) (hf : (cfg0.win 3).flush t = true) :
    (dats m 0 c).flushed 3 t = ((cfg0.win 3).blk t).view.read (Elt Ideal) (result m c) := by
  have h1 : t.val % 2 = 1 := (flush0_3 t).mp hf
  have hN : cfg0.N = 32 := N_0
  have ht : t.val < 32 := lt_of_lt_of_eq t.isLt hN
  obtain ⟨s, hs⟩ : ∃ s : Fin cfg0.N, s.val + 1 = t.val := ⟨⟨t.val - 1, by omega⟩, by dsimp only; omega⟩
  rw [Value.flushed3, output_at_odd m c s t hs h1]
  obtain ⟨-, -, -, -, -, -, e30, e31⟩ := block_positions t
  funext j
  obtain ⟨p, q, hpq⟩ : ∃ p q : Fin 512, (cfg0.win 3).xinj (grid0.coords t) j = ix2 p q :=
    ⟨_, _, eq_ix2 (n0 := 512) (n1 := 512) _⟩
  show k0_pay3 (k0_pay2 (k0_pay2 (k0_pay1 (F := Ideal)) (iblk m c 0 s) (iblk m c 1 s)) (iblk m c 0 t) (iblk m c 1 t))
      (iblk m c 2 t) ((cfg0.win 3).xinj (grid0.coords t) j) = result m c (((cfg0.win 3).blk t).view.emb j)
  rw [hpq]
  refine (block_entry (iblk m c 0 s) (iblk m c 1 s) (iblk m c 0 t) (iblk m c 1 t) (iblk m c 2 t) p q).trans ?_
  have hp : (j 0).val = p.val := congrArg (fun i : S512x512.Idx => (i 0).val) hpq
  have hq : (j 1).val = q.val := congrArg (fun i : S512x512.Idx => (i 1).val) hpq
  have hpl : p.val < 512 := p.isLt
  have hql : q.val < 512 := q.isLt
  -- where block entry (p, q) lands in the array
  have hR : 512 * (t.val / 4) + p.val < 4096 := by omega
  have hNn : 512 * (t.val / 2 % 2) + q.val < 1024 := by omega
  have hi : ((cfg0.win 3).blk t).view.emb j
      = ix2 (⟨512 * (t.val / 4) + p.val, hR⟩ : Fin 4096) (⟨512 * (t.val / 2 % 2) + q.val, hNn⟩ : Fin 1024) :=
    funext fun a => Fin.ext (by
      match a with
      | ⟨0, _⟩ => show win0_3.index t (0 : Fin 2) * 512 + 1 * (j 0).val = 512 * (t.val / 4) + p.val; omega
      | ⟨1, _⟩ => show win0_3.index t (1 : Fin 2) * 512 + 1 * (j 1).val = 512 * (t.val / 2 % 2) + q.val; omega)
  rw [hi]
  unfold result
  rw [Cert.Spec.affine_ix2, ← Cert.Spec.sum_two_halves]
  -- the even point's blocks sit at contraction block 0, the odd point's at contraction block 1
  have hxs : ∀ k : Fin 512, iblk m c 0 s (ix2 p k)
      = m ((c : Thread nD τ).loc main_arg0) (ix2 ⟨512 * (t.val / 4) + p.val, hR⟩ (Fin.castAdd 512 k)) := fun k =>
    x_block m c s (ix2 p k) _ _ hR (Fin.castAdd 512 k).isLt
      (by show _ = 512 * (s.val / 4) + p.val; omega) (by show k.val = 512 * (s.val % 2) + k.val; omega)
  have hws : ∀ k : Fin 512, iblk m c 1 s (ix2 k q)
      = m ((c : Thread nD τ).loc main_arg1) (ix2 ⟨512 * (t.val / 2 % 2) + q.val, hNn⟩ (Fin.castAdd 512 k)) := fun k =>
    wt_block m c s (ix2 k q) _ _ (Fin.castAdd 512 k).isLt hNn
      (by show k.val = 512 * (s.val % 2) + k.val; omega) (by show _ = 512 * (s.val / 2 % 2) + q.val; omega)
  have hxt : ∀ k : Fin 512, iblk m c 0 t (ix2 p k)
      = m ((c : Thread nD τ).loc main_arg0) (ix2 ⟨512 * (t.val / 4) + p.val, hR⟩ (Fin.natAdd 512 k)) := fun k =>
    x_block m c t (ix2 p k) _ _ hR (Fin.natAdd 512 k).isLt
      (by show _ = 512 * (t.val / 4) + p.val; rfl) (by show 512 + k.val = 512 * (t.val % 2) + k.val; omega)
  have hwt : ∀ k : Fin 512, iblk m c 1 t (ix2 k q)
      = m ((c : Thread nD τ).loc main_arg1) (ix2 ⟨512 * (t.val / 2 % 2) + q.val, hNn⟩ (Fin.natAdd 512 k)) := fun k =>
    wt_block m c t (ix2 k q) _ _ (Fin.natAdd 512 k).isLt hNn
      (by show 512 + k.val = 512 * (t.val % 2) + k.val; omega) (by show _ = 512 * (t.val / 2 % 2) + q.val; rfl)
  have hb : iblk m c 2 t (ix2 (0 : Fin 1) q)
      = m ((c : Thread nD τ).loc main_arg2) (ix1 ⟨512 * (t.val / 2 % 2) + q.val, hNn⟩) :=
    bias_block m c t (ix2 (0 : Fin 1) q) _ hNn (by show _ = 512 * (t.val / 2 % 2) + q.val; rfl)
  rw [hb]
  simp only [hxs, hws, hxt, hwt]

/-! ### The sixteen blocks fill the output -/

/-- An entry of the output is in point `t`'s block exactly when, on each axis, its coordinate is in the block's
    range there. -/
theorem mem_block (t : Fin cfg0.N) (i : S4096x1024.Idx) :
    i ∈ ((cfg0.win 3).blk t).view.set ↔ ∀ a : Fin 2, win0_3.index t a * S512x512.size a ≤ (i a).val
      ∧ (i a).val < win0_3.index t a * S512x512.size a + S512x512.size a := by
  show i ∈ ((View.whole main_v2).slice (win0_3.rect t)).set ↔ _
  rw [View.set_slice_whole, Rect.mem_set_unit]
  exact Iff.rfl

/-- Entry `(R, N)` lies in the block that the odd point `4 · (R / 512) + 2 · (N / 512) + 1` writes back. -/
theorem every_entry_written (i : S4096x1024.Idx) :
    ∃ t : Fin cfg0.N, (cfg0.win 3).flush t = true ∧ i ∈ ((cfg0.win 3).blk t).view.set := by
  have hN : cfg0.N = 32 := N_0
  have hi0 : (i 0).val < 4096 := (i 0).isLt
  have hi1 : (i 1).val < 1024 := (i 1).isLt
  have hlt : 4 * ((i 0).val / 512) + 2 * ((i 1).val / 512) + 1 < cfg0.N := by omega
  refine ⟨⟨4 * ((i 0).val / 512) + 2 * ((i 1).val / 512) + 1, hlt⟩, (flush0_3 _).mpr (by dsimp only; omega), ?_⟩
  obtain ⟨-, -, -, -, -, -, e0, e1⟩ := block_positions ⟨4 * ((i 0).val / 512) + 2 * ((i 1).val / 512) + 1, hlt⟩
  rw [mem_block]
  intro a
  match a with
  | ⟨0, _⟩ =>
    show win0_3.index ⟨4 * ((i 0).val / 512) + 2 * ((i 1).val / 512) + 1, hlt⟩ (0 : Fin 2) * 512 ≤ (i 0).val
      ∧ (i 0).val < win0_3.index ⟨4 * ((i 0).val / 512) + 2 * ((i 1).val / 512) + 1, hlt⟩ (0 : Fin 2) * 512 + 512
    rw [e0]; dsimp only; omega
  | ⟨1, _⟩ =>
    show win0_3.index ⟨4 * ((i 0).val / 512) + 2 * ((i 1).val / 512) + 1, hlt⟩ (1 : Fin 2) * 512 ≤ (i 1).val
      ∧ (i 1).val < win0_3.index ⟨4 * ((i 0).val / 512) + 2 * ((i 1).val / 512) + 1, hlt⟩ (1 : Fin 2) * 512 + 512
    rw [e1]; dsimp only; omega

/-- Every block written back is its block of `x · wᵀ + b`, and the blocks written back fill the array: after the
    last point the output array is `x · wᵀ + b`. -/
theorem output_is_affine (c : Dev nD) : (dats m 0 c).arrAt 3 cfg0.N = result m c :=
  (dats m 0 c).arrAt_eq_of_cover 3 _ (fun t hf => odd_point_writes_its_block m c t hf) every_entry_written

/-! ### The run -/

/-- From any memory the program terminates; the result array then holds `x · wᵀ + b` of the three argument
    arrays as they were at the start, and the three argument arrays are unchanged. -/
theorem run : θ_run (defs (F := Ideal)) (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (output_is_affine m c), (h c).2⟩)
    (Cert.ReferenceIdeal.Value.run_blocks m ρ)

end Cert.ReferenceIdeal.Hand

end
-- ==== Proof.lean ====
/-
  A linear layer, `y = x · wᵀ + b` with `x` of 4096 × 1024, `w` of 1024 × 1024 and `b` of 1024 entries,
  computed two ways that agree entry by entry over the extended reals.

  The first program cuts the rows of `x` into four blocks of 1024 and, for each block, contracts all 1024 columns
  against the rows of `w` in one product, then adds the bias to every row. The second transposes `w` first, cuts the
  output into 512 × 512 blocks and the contraction into two halves of 512, and builds each output block in two
  steps: zero plus the first half's products, then plus the second half's, and last plus the bias.

  Both leave in their result array the one function `Cert.Spec.affine x w b`, whose entry at row `r`, column `n`
  is `Σ_{k<1024} x r k · w n k + b n` (Proof/KernelValue.lean for the first program, Proof/RefValue.lean for the
  second, over Proof/RefPieces.lean, Proof/RefArith.lean and Proof/RefBlocks.lean). The only law of arithmetic
  between them is that a sum over 1024 indices is zero plus its first 512 terms plus its last 512 terms
  (Proof/Spec.lean), which holds of all extended reals: the equality does not use that the inputs are finite.
  Narrowing a float to a shorter format is the identity on extended reals, so the first program's two narrowings
  do not enter. The kernel over the extended reals is the kernel's own text read there (no operation was rewritten),
  so there is nothing to state about their relation; and each of the three programs terminates without fault,
  leaving its arguments as they were.
-/
import proofs.«121675_g2000605864221345_pallasbulk_1315_17_alg».proof.Defs
import proofs.«121675_g2000605864221345_pallasbulk_1315_17_alg».proof.Proof.Gen.Kernel
import proofs.«121675_g2000605864221345_pallasbulk_1315_17_alg».proof.Proof.Gen.Kernel.Frame
import proofs.«121675_g2000605864221345_pallasbulk_1315_17_alg».proof.Proof.Gen.KernelIdeal
import proofs.«121675_g2000605864221345_pallasbulk_1315_17_alg».proof.Proof.Gen.KernelIdeal.Frame
import proofs.«121675_g2000605864221345_pallasbulk_1315_17_alg».proof.Proof.Gen.ReferenceIdeal
import proofs.«121675_g2000605864221345_pallasbulk_1315_17_alg».proof.Proof.Gen.ReferenceIdeal.Frame
import proofs.«121675_g2000605864221345_pallasbulk_1315_17_alg».proof.Proof.Gen.Pre_finite_inputs
import proofs.«121675_g2000605864221345_pallasbulk_1315_17_alg».proof.Proof.Spec
import proofs.«121675_g2000605864221345_pallasbulk_1315_17_alg».proof.Proof.KernelValue
import proofs.«121675_g2000605864221345_pallasbulk_1315_17_alg».proof.Proof.RefValue
import Idealize.ShloMosaic.Adequacy
import Idealize.ShloMosaic.Init

noncomputable section

namespace Cert.Proof

open Idealize.ShloMosaic Idealize.ShloMosaic.TcCoe Idealize.SL.Sem

/-- The kernel as printed terminates without fault and leaves its three arguments unchanged. -/
theorem frame_kernel : Cert.frame_Kernel := fun m ρ _ => Cert.Kernel.Gen.frame m ρ

/-- So does the kernel read over the extended reals, -/
theorem frame_kernel_ideal : Cert.frame_KernelIdeal := fun m ρ _ => Cert.KernelIdeal.Gen.frame m ρ

/-- and so does the tiled program read over the extended reals. -/
theorem frame_reference_ideal : Cert.frame_ReferenceIdeal := fun m ρ _ => Cert.ReferenceIdeal.Gen.frame m ρ

/-- No operation of the kernel was rewritten on the way to the extended reals: nothing to state. -/
theorem preserves : Cert.preserves_Kernel_KernelIdeal := trivial

/-- From memories that agree on `x`, `w` and `b`, both programs terminate with their result arrays at
    `x · wᵀ + b` of those arguments — the same function of the same arrays — and their arguments unchanged. -/
theorem algebraic : Cert.algebraic_KernelIdeal_ReferenceIdeal := by
  intro m ρ m' ρ' _ hagree
  refine ⟨fun c => Cert.Spec.affine
      (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.KernelIdeal.Hand.run m ρ, ?_⟩
  refine (θ_run Cert.ReferenceIdeal.defs _ _).mono (fun _ h c => ⟨(h c).1.trans ?_, (h c).2⟩)
    (Cert.ReferenceIdeal.Hand.run m' ρ')
  show Cert.Spec.affine _ _ _ = Cert.Spec.affine _ _ _
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
